-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x2048 : Shape := ⟨3, ![64, 512, 2048]⟩
abbrev S512x512x1 : Shape := ⟨3, ![512, 512, 1]⟩
abbrev S512 : Shape := ⟨1, ![512]⟩
abbrev S_ : Shape := ⟨0, ![]⟩

class Facts : Prop where
  bcast_S_S64x512x2048 : S_.BroadcastsInDim S64x512x2048 (![] : Fin 0 → Fin S64x512x2048.rank)
  reducesTo_S64x512x2048_S_d0_1_2 : S64x512x2048.ReducesTo [0, 1, 2] S_
  h_S_ : 0 < S_.numel
  bcast_S_S512x512x1 : S_.BroadcastsInDim S512x512x1 (![] : Fin 0 → Fin S512x512x1.rank)
  reducesTo_S512x512x1_S_d0_1_2 : S512x512x1.ReducesTo [0, 1, 2] S_
  bcast_S_S512 : S_.BroadcastsInDim S512 (![] : Fin 0 → Fin S512.rank)
  reducesTo_S512_S_d0 : S512.ReducesTo [0] S_

variable [Facts]

def fn {F : FTy → Type} [FloatOps F] (main_arg0 : FVec F S64x512x2048 .f32) (main_arg1 : FVec F S512x512x1 .f32) (main_arg2 : FVec F S512 .f32) : IVec S_ 1 :=
  let main_v0 : FVec F S64x512x2048 .f32 := Host.absf main_arg0
  let main_cst : FVec F S_ .f32 := constant S_ .f32 0x7F800000#32
  let main_v1 : FVec F S64x512x2048 .f32 := broadcastInDim S64x512x2048 ![] bcast_S_S64x512x2048 main_cst
  let main_v2 : IVec S64x512x2048 1 := cmpf .olt main_v0 main_v1
  let main_c : IVec S_ 1 := constantI S_ 1 1#1
  let main_v3 : IVec S_ 1 := (fun x v => Host.reduce IntOp.andi x v reducesTo_S64x512x2048_S_d0_1_2 h_S_) main_v2 main_c
  let main_v4 : FVec F S512x512x1 .f32 := Host.absf main_arg1
  let main_cst_0 : FVec F S_ .f32 := constant S_ .f32 0x7F800000#32
  let main_v5 : FVec F S512x512x1 .f32 := broadcastInDim S512x512x1 ![] bcast_S_S512x512x1 main_cst_0
  let main_v6 : IVec S512x512x1 1 := cmpf .olt main_v4 main_v5
  let main_c_1 : IVec S_ 1 := constantI S_ 1 1#1
  let main_v7 : IVec S_ 1 := (fun x v => Host.reduce IntOp.andi x v reducesTo_S512x512x1_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S64x512x2048 : Shape := ⟨3, ![64, 512, 2048]⟩
abbrev S512x512x1 : Shape := ⟨3, ![512, 512, 1]⟩
abbrev S512 : Shape := ⟨1, ![512]⟩
abbrev S512x512 : Shape := ⟨2, ![512, 512]⟩
abbrev S512x1 : Shape := ⟨2, ![512, 1]⟩
abbrev S2x512x2048 : Shape := ⟨3, ![2, 512, 2048]⟩
abbrev S1x512x2048 : Shape := ⟨3, ![1, 512, 2048]⟩
abbrev S512x2048 : Shape := ⟨2, ![512, 2048]⟩

abbrev nBuf : Space → Nat
  | .hbm => 6
  | .vmem => 6
  | .smem => 0
  | _ => 0

abbrev bufTy : (tb : Table) → Fin (tcTables nBuf tb) → BufTy
  | .hbm, ⟨0, _⟩ => ⟨S64x512x2048, .f32⟩
  | .hbm, ⟨1, _⟩ => ⟨S512x512x1, .f32⟩
  | .hbm, ⟨2, _⟩ => ⟨S512, .f32⟩
  | .hbm, ⟨3, _⟩ => ⟨S512x512, .f32⟩
  | .hbm, ⟨4, _⟩ => ⟨S512x1, .f32⟩
  | .hbm, ⟨5, _⟩ => ⟨S64x512x2048, .f32⟩
  | .local _ .vmem, ⟨0, _⟩ => ⟨S2x512x2048, .f32⟩
  | .local _ .vmem, ⟨1, _⟩ => ⟨S2x512x2048, .f32⟩
  | .local _ .vmem, ⟨2, _⟩ => ⟨S512x512, .f32⟩
  | .local _ .vmem, ⟨3, _⟩ => ⟨S512x1, .f32⟩
  | .local _ .vmem, ⟨4, _⟩ => ⟨S2x512x2048, .f32⟩
  | .local _ .vmem, ⟨5, _⟩ => ⟨S2x512x2048, .f32⟩
  | _, _ => ⟨S64x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512x512x1_S512x512 : S512x512x1.ShapeCasts S512x512
  shapeCasts_S512_S512x1 : S512.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2x512x2048_S1x512x2048_0_0_0 : ∀ a, (![0, 0, 0] : Fin 3 → Nat) a + S1x512x2048.size a ≤ S2x512x2048.size a
  h_S1x512x2048 : 0 < S1x512x2048.numel
  shapeCasts_S1x512x2048_S512x2048 : S1x512x2048.ShapeCasts S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  shapeCasts_S512x2048_S1x512x2048 : S512x2048.ShapeCasts S1x512x2048
  inb_S2x512x2048_S1x512x2048_1_0_0 : ∀ a, (![1, 0, 0] : Fin 3 → Nat) a + S1x512x2048.size a ≤ S2x512x2048.size a
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x2048.size a ≤ S64x512x2048.size a
  hwx0_0 : ∀ i : grid0.Coords, EltTy.bits .f32 = 32 ∨ (Rect.block (s := S64x512x2048) S2x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x2048.size a ≤ S64x512x2048.size a
  hwx0_3 : ∀ i : grid0.Coords, EltTy.bits .f32 = 32 ∨ (Rect.block (s := S64x512x2048) S2x512x2048.size (cc0_transform_3 i) (hinb0_3 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S2x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x2048 : Shape := ⟨3, ![64, 512, 2048]⟩
abbrev S512x512x1 : Shape := ⟨3, ![512, 512, 1]⟩
abbrev S512 : Shape := ⟨1, ![512]⟩
abbrev S512x512 : Shape := ⟨2, ![512, 512]⟩
abbrev S512x1 : Shape := ⟨2, ![512, 1]⟩
abbrev S1x512x1664 : Shape := ⟨3, ![1, 512, 1664]⟩
abbrev S512x1664 : Shape := ⟨2, ![512, 1664]⟩

abbrev nBuf : Space → Nat
  | .hbm => 6
  | .vmem => 6
  | .smem => 0
  | _ => 0

abbrev bufTy : (tb : Table) → Fin (tcTables nBuf tb) → BufTy
  | .hbm, ⟨0, _⟩ => ⟨S64x512x2048, .f32⟩
  | .hbm, ⟨1, _⟩ => ⟨S512x512x1, .f32⟩
  | .hbm, ⟨2, _⟩ => ⟨S512, .f32⟩
  | .hbm, ⟨3, _⟩ => ⟨S512x512, .f32⟩
  | .hbm, ⟨4, _⟩ => ⟨S512x1, .f32⟩
  | .hbm, ⟨5, _⟩ => ⟨S64x512x2048, .f32⟩
  | .local _ .vmem, ⟨0, _⟩ => ⟨S1x512x1664, .f32⟩
  | .local _ .vmem, ⟨1, _⟩ => ⟨S1x512x1664, .f32⟩
  | .local _ .vmem, ⟨2, _⟩ => ⟨S512x512, .f32⟩
  | .local _ .vmem, ⟨3, _⟩ => ⟨S512x1, .f32⟩
  | .local _ .vmem, ⟨4, _⟩ => ⟨S1x512x1664, .f32⟩
  | .local _ .vmem, ⟨5, _⟩ => ⟨S1x512x1664, .f32⟩
  | _, _ => ⟨S64x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S512x512x1_S512x512 : S512x512x1.ShapeCasts S512x512
  shapeCasts_S512_S512x1 : S512.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x1664_S1x512x1664_0_0_0 : ∀ a, (![0, 0, 0] : Fin 3 → Nat) a + S1x512x1664.size a ≤ S1x512x1664.size a
  h_S1x512x1664 : 0 < S1x512x1664.numel
  shapeCasts_S1x512x1664_S512x1664 : S1x512x1664.ShapeCasts S512x1664
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1664 : S512x1.Broadcasts S512x1664
  shapeCasts_S512x1664_S1x512x1664 : S512x1664.ShapeCasts S1x512x1664
  dot_S512x512_S512x1664_S512x1664_1_0_0_1_n_n_wf : DotDims.WF S512x512 S512x1664 S512x1664 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x512x1664.size a < S64x512x2048.size a
  hwx0_0 : ∀ i : grid0.Coords, EltTy.bits .f32 = 32 ∨ (Rect.unit (s := S64x512x2048) (fun a => cc0_transform_0 i a * S1x512x1664.size a) (fun a => (Pipeline.Clip.of (cc0_transform_0 i a) (S1x512x1664.size a) (S64x512x2048.size a)).extent (S1x512x1664.size a)) fun a => Pipeline.Clip.inb (Pipeline.Clip.ok_of (hstart0_0 i a))).WholeWords (EltTy.packing .f32)
  hwxs0_0 : ∀ i : grid0.Coords, EltTy.bits .f32 = 32 ∨ (Rect.unit (s := S1x512x1664) (fun _ => 0) (fun a => (Pipeline.Clip.of (cc0_transform_0 i a) (S1x512x1664.size a) (S64x512x2048.size a)).extent (S1x512x1664.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x512x1664.size a < S64x512x2048.size a
  hwx0_3 : ∀ i : grid0.Coords, EltTy.bits .f32 = 32 ∨ (Rect.unit (s := S64x512x2048) (fun a => cc0_transform_3 i a * S1x512x1664.size a) (fun a => (Pipeline.Clip.of (cc0_transform_3 i a) (S1x512x1664.size a) (S64x512x2048.size a)).extent (S1x512x1664.size a)) fun a => Pipeline.Clip.inb (Pipeline.Clip.ok_of (hstart0_3 i a))).WholeWords (EltTy.packing .f32)
  hwxs0_3 : ∀ i : grid0.Coords, EltTy.bits .f32 = 32 ∨ (Rect.unit (s := S1x512x1664) (fun _ => 0) (fun a => (Pipeline.Clip.of (cc0_transform_3 i a) (S1x512x1664.size a) (S64x512x2048.size a)).extent (S1x512x1664.size a)) fun a => (Nat.zero_add _).trans_le (Pipeline.Clip.extent_le (Pipeline.Clip.ok_of (hstart0_3 i a)))).WholeWords (EltTy.packing .f32)

variable [Facts₀]

def dot_S512x512_S512x1664_S512x1664_1_0_0_1_n_n : DotDims S512x512 S512x1664 S512x1664 where
  lhsContracting := [1]
  rhsContracting := [0]
  lhsNonContracting := [0]
  rhsNonContracting := [1]
  lhsBatch := []
  rhsBatch := []
  wf := dot_S512x512_S512x1664_S512x1664_1_0_0_1_n_n_wf

abbrev win0_0 : Pipeline.Window sig grid0 :=
  Pipeline.Window.ofSpecClip (Memref.whole main_arg0) S1x512x1664.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v2) S1x512x1664.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibConvBlock.lean ====
/-
  One block of a convolution with a window of one position, as a kernel body computes it: a `C × K` weight block
  times a `[1, K, L]` input block viewed as a `K × L` matrix, accumulated into zero, plus a `C × 1` bias column
  broadcast along the positions, stored back as a `[1, C, L]` block. Read at the extended reals, entry `(0, o, l)`
  of the result is `(∑ k, w[o, k] · x[0, k, l]) + b[o, 0]`: column `l` of the result depends on column `l` of the
  input block only. General in the three extents.
-/
import proofs.«179022_g2000006126297917_pallasbulk_279_6_alg».proof.Proof.LibMatmulNN
import Idealize.ShloMosaic.Lib.Pipeline.Value

noncomputable section

open scoped BigOperators

namespace LibConvBlock

open Idealize.ShloMosaic Idealize.ShloMosaic.ValueIdx

variable (C K L : Nat)

/-- Dropping the leading coordinate of `(0, o, l)` leaves `(o, l)`. -/
theorem tail_ix3 {n0 n1 n2 : Nat} (a : Fin n0) (b : Fin n1) (c : Fin n2) :
    (fun d : Fin 2 => (ix3 a b c) d.succ) = ix2 b c := by
  funext d; match d with | ⟨0, _⟩ => rfl | ⟨1, _⟩ => rfl

/-- Putting a leading `0` before `(k, l)` gives `(0, k, l)`. -/
theorem cons_ix2 {n1 n2 : Nat} (b : Fin n1) (c : Fin n2) :
    (Fin.cons (⟨0, Nat.one_pos⟩ : Fin 1) (ix2 b c) : (⟨3, ![1, n1, n2]⟩ : Shape).Idx) = ix3 0 b c := by
  funext d; match d with | ⟨0, _⟩ => rfl | ⟨1, _⟩ => rfl | ⟨2, _⟩ => rfl

/-- Entry `(0, o, l)` of the stored block. -/
theorem block_apply
    (hw : (⟨2, ![C, K]⟩ : Shape).ShapeCasts ⟨2, ![C, K]⟩)
    (hx : (⟨3, ![1, K, L]⟩ : Shape).ShapeCasts ⟨2, ![K, L]⟩)
    (hb : (⟨2, ![C, 1]⟩ : Shape).ShapeCasts ⟨2, ![C, 1]⟩)
    (hbc : (⟨2, ![C, 1]⟩ : Shape).Broadcasts ⟨2, ![C, L]⟩)
    (ho : (⟨2, ![C, L]⟩ : Shape).ShapeCasts ⟨3, ![1, C, L]⟩)
    (w : FVec Ideal ⟨2, ![C, K]⟩ .f32) (x : FVec Ideal ⟨3, ![1, K, L]⟩ .f32) (b : FVec Ideal ⟨2, ![C, 1]⟩ .f32)
    (o : Fin C) (l : Fin L) :
    shapeCast ⟨3, ![1, C, L]⟩
      (addf (matmul (DotDims.plain C K L) none (shapeCast ⟨2, ![C, K]⟩ w hw) (shapeCast ⟨2, ![K, L]⟩ x hx)
              (constant (F := Ideal) ⟨2, ![C, L]⟩ .f32 0x00000000#32))
            (broadcastTo ⟨2, ![C, L]⟩ (shapeCast ⟨2, ![C, 1]⟩ b hb) hbc)) ho (ix3 0 o l)
      = (∑ k : Fin K, w (ix2 o k) * x (ix3 0 k l)) + b (ix2 o 0) := by
  rw [shapeCast_self w hw, shapeCast_self b hb]
  refine (shapeCast_addUnit_apply (α := EReal) ![C, L] _ ho (ix3 0 o l)).trans ?_
  rw [tail_ix3, addf_apply]
  have hm := LibMatmulNN.matmul_zero_apply C K L none w (shapeCast ⟨2, ![K, L]⟩ x hx) o l
  have hbq : broadcastTo ⟨2, ![C, L]⟩ b hbc (ix2 o l) = b (ix2 o 0) := by
    refine broadcastTo_apply b hbc (ix2 o l) (ix2 o 0) fun a => ?_
    match a with
    | ⟨0, _⟩ =>
      show o.val = if C = 1 then 0 else o.val
      split
      · rename_i h; have := o.isLt; omega
      · rfl
    | ⟨1, _⟩ => rfl
  rw [hbq]
  refine congrArg (· + b (ix2 o 0)) (hm.trans (Finset.sum_congr rfl fun k _ => ?_))
  refine congrArg (w (ix2 o k) * ·) ?_
  exact (shapeCast_dropUnit_apply (α := EReal) ![K, L] x hx (ix2 k l)).trans (congrArg x (cons_ix2 k l))

end LibConvBlock

end
-- ==== Proof.Spec.lean ====
/-
  The function both programs compute: a convolution with a window of one position, that is, at every batch row
  `n` and position `l` the product of the `512 × 512` weight matrix with the column `x[n, ·, l]`, plus the bias:
      conv x w b [n, o, l] = (∑ k, w[o, k] · x[n, k, l]) + b[o, 0]
  over the extended reals, with `w` the weight already viewed as a matrix and `b` the bias already viewed as a
  column (both programs make these two views by the same two host reshapes before their kernels are launched).
  Nothing here needs the inputs to be finite: the two programs compute this same sum, term for term.
-/
import Idealize.ShloMosaic.PureOps.Ideal
import Idealize.ShloMosaic.Lib.ValueIdx

noncomputable section

open scoped BigOperators

namespace Conv1x1

open Idealize.ShloMosaic Idealize.ShloMosaic.ValueIdx

/-- The result array as one function of the input array, the weight matrix and the bias column. -/
def conv (x : (⟨3, ![64, 512, 2048]⟩ : Shape).Idx → EReal) (w : (⟨2, ![512, 512]⟩ : Shape).Idx → EReal)
    (b : (⟨2, ![512, 1]⟩ : Shape).Idx → EReal) : (⟨3, ![64, 512, 2048]⟩ : Shape).Idx → EReal :=
  fun i => (∑ k : Fin 512, w (ix2 (i 1) k) * x (ix3 (i 0) k (i 2))) + b (ix2 (i 1) 0)

theorem conv_apply (x : (⟨3, ![64, 512, 2048]⟩ : Shape).Idx → EReal) (w : (⟨2, ![512, 512]⟩ : Shape).Idx → EReal)
    (b : (⟨2, ![512, 1]⟩ : Shape).Idx → EReal) (n : Fin 64) (o : Fin 512) (l : Fin 2048) :
    conv x w b (ix3 n o l) = (∑ k : Fin 512, w (ix2 o k) * x (ix3 n k l)) + b (ix2 o 0) := rfl

end Conv1x1

end
-- ==== Proof.KernelValue.lean ====
import proofs.«179022_g2000006126297917_pallasbulk_279_6_alg».proof.Proof.Gen.KernelIdeal.Value
import proofs.«179022_g2000006126297917_pallasbulk_279_6_alg».proof.Proof.LibConvBlock
import proofs.«179022_g2000006126297917_pallasbulk_279_6_alg».proof.Proof.Spec
import Idealize.ShloMosaic.Lib.StableHlo.Run
import Idealize.ShloMosaic.Lib.Pipeline.Value
import Idealize.ShloMosaic.Lib.Tactic

/-
  The kernel side's value. The kernel walks a grid of 32 points; point `t` stages rows `2t` and `2t + 1` of the
  `[64, 512, 2048]` input (a block of shape `[2, 512, 2048]`), the whole `512 × 512` weight matrix and the whole
  `512 × 1` bias column, and for each of the two rows stores into the matching row of its output block the weight
  matrix times that row, seen as a `512 × 2048` matrix, plus the bias broadcast along the positions. So entry
  `(i, o, l)` of the output block depends on column `l` of row `i` of the input block only, and is
      (∑ k, w[o, k] · x[2t + i, k, l]) + b[o, 0].
  The 32 output blocks tile the result array (index `(n, o, l)` lies in the block of point `n / 2`), so after the run the
  result array is the convolution `Conv1x1.conv` of the input with the weight matrix and the bias column, which two host
  views of the second and third arguments made before the grid was entered. No finiteness is needed: the sum is the
  specification's sum, term for term.
-/

noncomputable section

open scoped BigOperators

namespace Cert.KernelIdeal.ConvValue

open Cert.KernelIdeal Cert.KernelIdeal.Gen Idealize.ShloMosaic Idealize.ShloMosaic.TcCoe Idealize.SL.Sem
open Idealize.ShloMosaic.ValueIdx
open Idealize.ShloMosaic.Pipeline (Dat)

/-! ## One stored row at an index -/

/-- The first store's value at `(0, o, l)`: row `o` of the weight against column `l` of the loaded input row, plus
    the bias of channel `o`. -/
theorem pay1_apply (v0 : Vec Ideal S512x512 .f32) (v2 : Vec Ideal S1x512x2048 .f32) (v5 : Vec Ideal S512x1 .f32)
    (o : Fin 512) (l : Fin 2048) :
    Gen.k0_pay1 (F := Ideal) v0 v2 v5 (ix3 0 o l) = (∑ k : Fin 512, v0 (ix2 o k) * v2 (ix3 0 k l)) + v5 (ix2 o 0) := by
  unfold Gen.k0_pay1
  exact LibConvBlock.block_apply 512 512 2048 _ _ _ _ _ v0 v2 v5 o l

/-- The second store's value at `(0, o, l)`: the same term of its own loads. -/
theorem pay2_apply (v12 : Vec Ideal S512x512 .f32) (v14 : Vec Ideal S1x512x2048 .f32) (v17 : Vec Ideal S512x1 .f32)
    (o : Fin 512) (l : Fin 2048) :
    Gen.k0_pay2 (F := Ideal) v12 v14 v17 (ix3 0 o l) = (∑ k : Fin 512, v12 (ix2 o k) * v14 (ix3 0 k l)) + v17 (ix2 o 0) := by
  unfold Gen.k0_pay2
  exact LibConvBlock.block_apply 512 512 2048 _ _ _ _ _ v12 v14 v17 o l

/-! ## The two host views -/

/-- The weight as the kernel finds it: the `[512, 512, 1]` argument viewed as a matrix. -/
theorem V_main_v0 (m : (ℓ : Loc nD τ sig) → Buf (Elt Ideal) ℓ) (c : Dev nD) :
    (Gen.V m c main_v0 : S512x512.Idx → EReal)
      = shapeCast S512x512 (m ((c : Thread nD τ).loc main_arg1)) shapeCasts_S512x512x1_S512x512 := by
  dsimp only [Gen.V, Gen.hostOps0]; after_results; rfl

/-- The bias as the kernel finds it: the `[512]` argument viewed as a column. -/
theorem V_main_v1 (m : (ℓ : Loc nD τ sig) → Buf (Elt Ideal) ℓ) (c : Dev nD) :
    (Gen.V m c main_v1 : S512x1.Idx → EReal)
      = shapeCast S512x1 (m ((c : Thread nD τ).loc main_arg2)) shapeCasts_S512_S512x1 := by
  dsimp only [Gen.V, Gen.hostOps0]; after_results; rfl

/-! ## Where each window's block sits -/

/-- At every grid point `t` the input and output blocks are rows `2t, 2t + 1` of their arrays, whole on the other
    two axes; the weight's and the bias's blocks are their whole arrays. -/
theorem idx_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The output buffer after the body, at an index

The body fills the `[2, 512, 2048]` output buffer by two stores: row 0 from row 0 of the input buffer and row 1 from
row 1. So entry `(i, o, l)` of the buffer depends on column `l` of row `i` of the input buffer only. -/

/-- Row 1 of the buffer, as the second store's rectangle places its own indices. -/
theorem emb_row1 (o : Fin 512) (l : Fin 2048) :
    r0_3.emb (ix3 (0 : Fin 1) o l) = (ix3 (1 : Fin 2) o l : S2x512x2048.Idx) := by
  funext a; apply Fin.ext
  match a with
  | ⟨0, _⟩ => rfl
  | ⟨1, _⟩ => show 0 + 1 * o.val = o.val; omega
  | ⟨2, _⟩ => show 0 + 1 * l.val = l.val; omega

/-- Row 0 of the buffer, as the first store's rectangle places its own indices. -/
theorem emb_row0 (o : Fin 512) (l : Fin 2048) :
    r0_1.emb (ix3 (0 : Fin 1) o l) = (ix3 (0 : Fin 2) o l : S2x512x2048.Idx) := by
  funext a; apply Fin.ext
  match a with
  | ⟨0, _⟩ => rfl
  | ⟨1, _⟩ => show 0 + 1 * o.val = o.val; omega
  | ⟨2, _⟩ => show 0 + 1 * l.val = l.val; omega

/-- Row 0 is not under the second store, which writes row 1 only. -/
theorem row0_not_mem (o : Fin 512) (l : Fin 2048) : (ix3 (0 : Fin 2) o l : S2x512x2048.Idx) ∉ r0_3.set := by
  intro h
  have h0 : (1 : Nat) ≤ 0 := ((Rect.mem_set_unit.mp h) 0).1
  omega

/-- After the two stores, row 1 of the buffer is what the second store wrote; -/
theorem canon_row1 (p1 p0 : Vec Ideal S1x512x2048 .f32) (o : Fin 512) (l : Fin 2048) :
    View.canon ([⟨r0_3, p1⟩, ⟨r0_1, p0⟩] : List (View.Piece (Elt Ideal) S2x512x2048 .f32)) (ix3 (1 : Fin 2) o l)
      = p1 (ix3 0 o l) := by
  rw [← emb_row1 o l]
  exact View.canon_cons_emb r0_3 p1 _ _

/-- and row 0 what the first store wrote. -/
theorem canon_row0 (p1 p0 : Vec Ideal S1x512x2048 .f32) (o : Fin 512) (l : Fin 2048) :
    View.canon ([⟨r0_3, p1⟩, ⟨r0_1, p0⟩] : List (View.Piece (Elt Ideal) S2x512x2048 .f32)) (ix3 (0 : Fin 2) o l)
      = p0 (ix3 0 o l) := by
  rw [View.canon_cons_of_not_mem (⟨r0_3, p1⟩ : View.Piece (Elt Ideal) S2x512x2048 .f32) [⟨r0_1, p0⟩] (row0_not_mem o l),
    ← emb_row0 o l]
  exact View.canon_cons_emb r0_1 p0 _ _

/-- The whole weight block, loaded: the load's rectangle places `(o, k)` at `(o, k)`. -/
theorem idx_w (o k : Fin 512) : r0_0.idx (ix2 o k) = (ix2 o k : S512x512.Idx) := by
  funext a; apply Fin.ext
  match a with
  | ⟨0, _⟩ => show 0 + 1 * o.val = o.val; omega
  | ⟨1, _⟩ => show 0 + 1 * k.val = k.val; omega

/-- The whole bias block, loaded. -/
theorem idx_b (o : Fin 512) : r0_2.idx (ix2 o (0 : Fin 1)) = (ix2 o (0 : Fin 1) : S512x1.Idx) := by
  funext a; apply Fin.ext
  match a with
  | ⟨0, _⟩ => show 0 + 1 * o.val = o.val; omega
  | ⟨1, _⟩ => rfl

/-- Entry `(i, o, l)` of the output buffer after the body, from the three input buffers. -/
theorem out_apply (x0 : Vec Ideal S2x512x2048 .f32) (x1 : Vec Ideal S512x512 .f32) (x2 : Vec Ideal S512x1 .f32)
    (i : Fin 2) (o : Fin 512) (l : Fin 2048) :
    Gen.out0_3 (F := Ideal) x0 x1 x2 (ix3 i o l)
      = (∑ k : Fin 512, x1 (ix2 o k) * x0 (ix3 i k l)) + x2 (ix2 o 0) := by
  unfold Gen.out0_3
  match i with
  | ⟨1, _⟩ =>
    refine (canon_row1 _ _ o l).trans ?_
    refine (pay2_apply _ _ _ o l).trans ?_
    refine congrArg₂ (· + ·) (Finset.sum_congr rfl fun k _ => congrArg₂ (· * ·) ?_ ?_) ?_
    · exact congrArg x1 (idx_w o k)
    · exact congrArg x0 (emb_row1 k l)
    · exact congrArg x2 (idx_b o)
  | ⟨0, _⟩ =>
    refine (canon_row0 _ _ o l).trans ?_
    refine (pay1_apply _ _ _ o l).trans ?_
    refine congrArg₂ (· + ·) (Finset.sum_congr rfl fun k _ => congrArg₂ (· * ·) ?_ ?_) ?_
    · exact congrArg x1 (idx_w o k)
    · exact congrArg x0 (emb_row0 k l)
    · exact congrArg x2 (idx_b o)

/-! ## The blocks of a grid point, read off their arrays

Grid point `t` stages rows `2t` and `2t + 1` of the input, the whole weight matrix and the whole bias column, and
writes back rows `2t` and `2t + 1` of the result: a block's coordinate in its array is the block index times the
block's size plus the coordinate inside the block. -/

section Blocks

variable (m : (ℓ : Loc nD τ sig) → Buf (Elt Ideal) ℓ)

/-- Row `i` of the input block at point `t` is row `2t + i` of the input array. -/
theorem iblk0_apply (c : Dev nD) (t : Fin cfg0.N) (i : Fin 2) (k : Fin 512) (l : Fin 2048) (n : Fin 64)
    (hn : n.val = 2 * t.val + i.val) :
    (Gen.iblk m c 0 t : Vec Ideal S2x512x2048 .f32) (ix3 i k l)
      = (m ((c : Thread nD τ).loc main_arg0) : S64x512x2048.Idx → EReal) (ix3 n k l) := by
  obtain ⟨e0, e1, e2, -⟩ := idx_facts t
  unfold Gen.iblk
  rw [View.read_apply]
  show Gen.V m c main_arg0 (((cfg0.win 0).blk t).view.emb (ix3 i k l)) = _
  rw [Gen.V_main_arg0]
  refine congrArg (m ((c : Thread nD τ).loc main_arg0) : S64x512x2048.Idx → EReal) ?_
  funext a; apply Fin.ext
  match a with
  | ⟨0, _⟩ => show win0_0.index t (0 : Fin 3) * 2 + 1 * i.val = n.val; omega
  | ⟨1, _⟩ => show win0_0.index t (1 : Fin 3) * 512 + 1 * k.val = k.val; omega
  | ⟨2, _⟩ => show win0_0.index t (2 : Fin 3) * 2048 + 1 * l.val = l.val; omega

/-- The weight block at any point is the weight matrix. -/
theorem iblk1_apply (c : Dev nD) (t : Fin cfg0.N) (o k : Fin 512) :
    (Gen.iblk m c 1 t : Vec Ideal S512x512 .f32) (ix2 o k) = (Gen.V m c main_v0 : S512x512.Idx → EReal) (ix2 o k) := by
  obtain ⟨-, -, -, -, -, -, e0, e1, -⟩ := idx_facts t
  unfold Gen.iblk
  rw [View.read_apply]
  show Gen.V m c main_v0 (((cfg0.win 1).blk t).view.emb (ix2 o k)) = _
  refine congrArg (Gen.V m c main_v0 : S512x512.Idx → EReal) ?_
  funext a; apply Fin.ext
  match a with
  | ⟨0, _⟩ => show win0_1.index t (0 : Fin 2) * 512 + 1 * o.val = o.val; omega
  | ⟨1, _⟩ => show win0_1.index t (1 : Fin 2) * 512 + 1 * k.val = k.val; omega

/-- The bias block at any point is the bias column. -/
theorem iblk2_apply (c : Dev nD) (t : Fin cfg0.N) (o : Fin 512) :
    (Gen.iblk m c 2 t : Vec Ideal S512x1 .f32) (ix2 o (0 : Fin 1))
      = (Gen.V m c main_v1 : S512x1.Idx → EReal) (ix2 o (0 : Fin 1)) := by
  obtain ⟨-, -, -, -, -, -, -, -, e0, e1⟩ := idx_facts t
  unfold Gen.iblk
  rw [View.read_apply]
  show Gen.V m c main_v1 (((cfg0.win 2).blk t).view.emb (ix2 o (0 : Fin 1))) = _
  refine congrArg (Gen.V m c main_v1 : S512x1.Idx → EReal) ?_
  funext a; apply Fin.ext
  match a with
  | ⟨0, _⟩ => show win0_2.index t (0 : Fin 2) * 512 + 1 * o.val = o.val; omega
  | ⟨1, _⟩ => show win0_2.index t (1 : Fin 2) * 1 + 1 * 0 = 0; omega

/-- Row `i` of the output block at point `t`, read off any array `G` of the result's shape, is row `2t + i` of `G`. -/
theorem oblk_read (c : Dev nD) (t : Fin cfg0.N) (G : S64x512x2048.Idx → EReal) (i : Fin 2) (o : Fin 512) (l : Fin 2048)
    (n : Fin 64) (hn : n.val = 2 * t.val + i.val) :
    ((cfg0.win 3).blk t).view.read (Elt Ideal) G (ix3 i o l) = G (ix3 n o l) := by
  obtain ⟨-, -, -, e0, e1, e2, -⟩ := idx_facts t
  rw [View.read_apply]
  show G (((cfg0.win 3).blk t).view.emb (ix3 i o l)) = _
  refine congrArg G ?_
  funext a; apply Fin.ext
  match a with
  | ⟨0, _⟩ => show win0_3.index t (0 : Fin 3) * 2 + 1 * i.val = n.val; omega
  | ⟨1, _⟩ => show win0_3.index t (1 : Fin 3) * 512 + 1 * o.val = o.val; omega
  | ⟨2, _⟩ => show win0_3.index t (2 : Fin 3) * 2048 + 1 * l.val = l.val; omega

end Blocks

/-! ## What a grid point writes back, the cover, and the run -/

section Run

variable (m : (ℓ : Loc nD τ sig) → Buf (Elt Ideal) ℓ) (ρ : Dev nD → PrngReg)

/-- The grid has 32 points. -/
theorem lt_N (t : Fin cfg0.N) : t.val < 32 := lt_of_lt_of_eq t.isLt N_0

/-- Grid point `t` writes back rows `2t, 2t + 1` of the convolution of the input array with the weight matrix and
    the bias column as the kernel finds them: entry `(i, o, l)` of the output buffer is the weight's row `o` against
    column `l` of the input's row `2t + i`, plus the bias of channel `o`. -/
theorem flushed_eq (c : Dev nD) (t : Fin cfg0.N) :
    (dats m 0 c).flushed 3 t = ((cfg0.win 3).blk t).view.read (Elt Ideal)
      (Conv1x1.conv (m ((c : Thread nD τ).loc main_arg0)) (Gen.V m c main_v0) (Gen.V m c main_v1)) := by
  rw [Value.flushed3]
  funext y
  obtain ⟨i, o, l, rfl⟩ : ∃ (i : Fin 2) (o : Fin 512) (l : Fin 2048), y = ix3 i o l := ⟨y 0, y 1, y 2, eq_ix3 y⟩
  have ht := lt_N t
  have hi := i.isLt
  have hn : (⟨2 * t.val + i.val, by omega⟩ : Fin 64).val = 2 * t.val + i.val := rfl
  rw [oblk_read c t _ i o l ⟨2 * t.val + i.val, by omega⟩ hn]
  show Gen.out0_3 (Gen.iblk m c 0 t) (Gen.iblk m c 1 t) (Gen.iblk m c 2 t) (ix3 i o l) = _
  refine (out_apply (Gen.iblk m c 0 t) (Gen.iblk m c 1 t) (Gen.iblk m c 2 t) i o l).trans ?_
  refine Eq.trans ?_ (Conv1x1.conv_apply _ _ _ _ o l).symm
  refine congrArg₂ (· + ·) (Finset.sum_congr rfl fun k _ => congrArg₂ (· * ·) ?_ ?_) ?_
  · exact iblk1_apply m c t o k
  · exact iblk0_apply m c t i k l _ hn
  · exact iblk2_apply m c t o

/-- Index `(n, o, l)` of the result is written back by point `n / 2`, whose block is rows `2 (n / 2)` and
    `2 (n / 2) + 1`, whole on the other two axes: the 32 blocks tile the array. -/
theorem cover (i : S64x512x2048.Idx) :
    ∃ t : Fin cfg0.N, (cfg0.win 3).flush t = true ∧ i ∈ ((cfg0.win 3).blk t).view.set := by
  have h0 : (i 0).val < 64 := (i 0).isLt
  have h1 : (i 1).val < 512 := (i 1).isLt
  have h2 : (i 2).val < 2048 := (i 2).isLt
  have hN : cfg0.N = 32 := N_0
  let t : Fin cfg0.N := ⟨(i 0).val / 2, by rw [hN]; omega⟩
  obtain ⟨-, -, -, e0, e1, e2, -⟩ := idx_facts t
  have et : t.val = (i 0).val / 2 := rfl
  refine ⟨t, flush0_3 t, ?_⟩
  show i ∈ ((View.whole main_v2).slice (win0_3.rect t)).set
  rw [View.set_slice_whole, Rect.mem_set_unit]
  intro a
  match a with
  | ⟨0, _⟩ =>
    show win0_3.index t (0 : Fin 3) * 2 ≤ (i 0).val ∧ (i 0).val < win0_3.index t (0 : Fin 3) * 2 + 2
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 2048 ≤ (i 2).val ∧ (i 2).val < win0_3.index t (2 : Fin 3) * 2048 + 2048
    omega

/-- So the result array ends holding the convolution. -/
theorem final (c : Dev nD) :
    (dats m 0 c).arrAt 3 cfg0.N
      = Conv1x1.conv (m ((c : Thread nD τ).loc main_arg0)) (Gen.V m c main_v0) (Gen.V m c main_v1) :=
  (dats m 0 c).arrAt_eq_of_cover 3
    (Conv1x1.conv (m ((c : Thread nD τ).loc main_arg0)) (Gen.V m c main_v0) (Gen.V m c main_v1))
    (fun t _ => flushed_eq m c t) cover

/-- The kernel's run: the result array ends at the convolution of the input with the weight matrix and the bias column
    the two host views made, and the three arguments are unchanged. -/
theorem run : θ_run defs (onTc (τ := τ) (main (F := Ideal))) ⟨m, fun _ => 0, ρ⟩ fun r => ∀ c : Dev nD,
      r.2.mem ((c : Thread nD τ).loc main_v2)
        = Conv1x1.conv (m ((c : Thread nD τ).loc main_arg0)) (Gen.V m c main_v0) (Gen.V m c main_v1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Run

end Cert.KernelIdeal.ConvValue

end
-- ==== Proof.RefIndex.lean ====
/-
  Where the reference's four windows sit at each grid point.
-/
import proofs.«179022_g2000006126297917_pallasbulk_279_6_alg».proof.Proof.Gen.ReferenceIdeal.Frame
import Idealize.ShloMosaic.Lib.ValueIdx

set_option maxRecDepth 16384

noncomputable section

namespace Cert.ReferenceIdeal.Conv

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The windows' index maps and cuts, decided once over the 128 grid points

Point `t` is batch row `t / 2` and position tile `t % 2`. The input's and the result's windows move alike: block index
`(t / 2, 0, t % 2)` of blocks `[1, 512, 1664]`; tile 0 is whole, tile 1 keeps the `2048 - 1664 = 384` positions inside
the array. The weight's and the bias's windows are the whole arrays at every point. -/

theorem index0 : ∀ t : Fin cfg0.N, win0_0.index t 0 = t.val / 2 ∧ win0_0.index t 1 = 0 ∧ win0_0.index t 2 = t.val % 2 :=
  (by decide +kernel : ∀ t : Fin grid0.N, win0_0.index t 0 = t.val / 2 ∧ win0_0.index t 1 = 0 ∧ win0_0.index t 2 = t.val % 2)

theorem index3 : ∀ t : Fin cfg0.N, win0_3.index t 0 = t.val / 2 ∧ win0_3.index t 1 = 0 ∧ win0_3.index t 2 = t.val % 2 :=
  (by decide +kernel : ∀ t : Fin grid0.N, win0_3.index t 0 = t.val / 2 ∧ win0_3.index t 1 = 0 ∧ win0_3.index t 2 = t.val % 2)

theorem index1 : ∀ t : Fin cfg0.N, win0_1.index t 0 = 0 ∧ win0_1.index t 1 = 0 :=
  (by decide +kernel : ∀ t : Fin grid0.N, win0_1.index t 0 = 0 ∧ win0_1.index t 1 = 0)

theorem index2 : ∀ t : Fin cfg0.N, win0_2.index t 0 = 0 ∧ win0_2.index t 1 = 0 :=
  (by decide +kernel : ∀ t : Fin grid0.N, win0_2.index t 0 = 0 ∧ win0_2.index t 1 = 0)

theorem xsize0 : ∀ t : Fin cfg0.N, win0_0.xsize (grid0.coords t) 0 = 1 ∧ win0_0.xsize (grid0.coords t) 1 = 512
    ∧ win0_0.xsize (grid0.coords t) 2 = (if t.val % 2 = 0 then 1664 else 384) :=
  (by decide +kernel : ∀ t : Fin grid0.N, win0_0.xsize (grid0.coords t) 0 = 1 ∧ win0_0.xsize (grid0.coords t) 1 = 512
    ∧ win0_0.xsize (grid0.coords t) 2 = (if t.val % 2 = 0 then 1664 else 384))

theorem xsize3 : ∀ t : Fin cfg0.N, win0_3.xsize (grid0.coords t) 0 = 1 ∧ win0_3.xsize (grid0.coords t) 1 = 512
    ∧ win0_3.xsize (grid0.coords t) 2 = (if t.val % 2 = 0 then 1664 else 384) :=
  (by decide +kernel : ∀ t : Fin grid0.N, win0_3.xsize (grid0.coords t) 0 = 1 ∧ win0_3.xsize (grid0.coords t) 1 = 512
    ∧ win0_3.xsize (grid0.coords t) 2 = (if t.val % 2 = 0 then 1664 else 384))

end Cert.ReferenceIdeal.Conv

end
-- ==== Proof.RefKernel.lean ====
/-
  The reference's kernel body, run once on whole staging buffers: it loads the weight matrix, one input block and the
  bias column, multiplies, adds the bias along the positions, and stores the block of results; the three input
  buffers are left as they were. Stated for any float instance.
-/
import proofs.«179022_g2000006126297917_pallasbulk_279_6_alg».proof.Proof.Gen.ReferenceIdeal.Frame
import proofs.«179022_g2000006126297917_pallasbulk_279_6_alg».proof.Proof.Gen.ReferenceIdeal.Skeleton
import Idealize.ShloMosaic.Lib.Pipeline.Value
import Idealize.ShloMosaic.Lib.ValueIdx

set_option maxRecDepth 16384

noncomputable section

namespace Cert.ReferenceIdeal.Conv

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each memref is read, and the result's written, whole -/

abbrev rW : Rect S512x512 := Rect.unit (s := S512x512) ![0, 0] S512x512.size inb_S512x512_S512x512_0_0
abbrev rX : Rect S1x512x1664 := Rect.unit (s := S1x512x1664) ![0, 0, 0] S1x512x1664.size inb_S1x512x1664_S1x512x1664_0_0_0
abbrev rB : Rect S512x1 := Rect.unit (s := S512x1) ![0, 0] S512x1.size inb_S512x1_S512x1_0_0

/-- What the result's staging buffer holds after the body, from what the three input buffers hold: the one store's
    payload over the three loads. -/
def outBlock (x0 : Vec F S1x512x1664 .f32) (x1 : Vec F S512x512 .f32) (x2 : Vec F S512x1 .f32) : Vec F S1x512x1664 .f32 :=
  View.canon [⟨rX, k0_pay1 (View.ld x1 rW) (View.ld x0 rX) (View.ld x2 rB)⟩]

/-- The one store covers the buffer. -/
theorem cover (p0 : Vec F S1x512x1664 .f32) (y : S1x512x1664.Idx) :
    ∃ pc ∈ ([⟨rX, p0⟩] : List (View.Piece (Elt F) S1x512x1664 .f32)), y ∈ pc.1.set :=
  View.cover_of_tiled [⟨rX, p0⟩] S1x512x1664.size (by rfl) y

/-- The loads read the buffers' contents and the store leaves its payload: the result's buffer ends at the payload of
    the three buffers' contents. -/
theorem outBlock_eq (x0 : Vec F S1x512x1664 .f32) (x1 : Vec F S512x512 .f32) (x2 : Vec F S512x1 .f32) :
    outBlock x0 x1 x2 = k0_pay1 x1 x0 x2 := by
  have hz3 : (![0, 0, 0] : Fin 3 → Nat) = fun _ => 0 := funext fun a => by fin_cases a <;> rfl
  have hz2 : (![0, 0] : Fin 2 → Nat) = fun _ => 0 := funext fun a => by fin_cases a <;> rfl
  unfold outBlock
  rw [View.canon_unit_zero hz3]
  rw [View.ld_unit_zero (S := S512x512) hz2, View.ld_unit_zero (S := S1x512x1664) hz3, View.ld_unit_zero (S := S512x1) hz2]

set_option maxHeartbeats 1000000 in
/-- The kernel body on whole staging memrefs, the three inputs' at contents `x0`, `x1`, `x2` and the result's at
    anything: it runs to the continuation with the inputs' as they were and the result's at `outBlock` of them (the
    load of the result's buffer reads words nothing uses). -/
theorem sound_kernel (c : Dev nD) (E : Set ℕ) (i : grid0.Coords)
    (arg2 : Memref sig .tc .vmem S1x512x1664 .f32) (harg2 : arg2.IsWhole) (arg3 : Memref sig .tc .vmem S512x512 .f32) (harg3 : arg3.IsWhole)
    (arg4 : Memref sig .tc .vmem S512x1 .f32) (harg4 : arg4.IsWhole) (arg5 : Memref sig .tc .vmem S1x512x1664 .f32) (harg5 : arg5.IsWhole)
    (x0 : Vec F S1x512x1664 .f32) (x1 : Vec F S512x512 .f32) (x2 : Vec F S512x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outBlock x0 x1 x2)) -∗ K ⟨⟩))
      ⊢ wp frame (wpE (defs₀ (F := F)) Variants.none c none) E (cc0__conv1x1_kernel i arg2 harg2 arg3 harg3 arg4 harg4 arg5 harg5) K := by
  simp only [cc0__conv1x1_kernel_eq_skeleton]; unfold cc0__conv1x1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

end Cert.ReferenceIdeal.Conv

end
-- ==== Proof.RefValue.lean ====
/-
  What the reference's kernel writes back at each grid point, read off the input array: the block of the convolution
  that the point's window names — also at the second position tile, whose staged input block holds, past the array's
  end, words that nothing names: a column of the result depends on the same column of the input block only.
-/
import proofs.«179022_g2000006126297917_pallasbulk_279_6_alg».proof.Proof.RefIndex
import proofs.«179022_g2000006126297917_pallasbulk_279_6_alg».proof.Proof.RefKernel
import proofs.«179022_g2000006126297917_pallasbulk_279_6_alg».proof.Proof.LibConvBlock
import proofs.«179022_g2000006126297917_pallasbulk_279_6_alg».proof.Proof.Spec

set_option maxRecDepth 16384

noncomputable section

namespace Cert.ReferenceIdeal.Conv

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-- The array the reference is shown to leave in its result: the convolution of the input array with the weight matrix
    and the bias column as the two host reshapes left them. -/
def G (c : Dev nD) : S64x512x2048.Idx → EReal :=
  Conv1x1.conv (V m c main_arg0) (V m c main_v0) (V m c main_v1)

/-- The body's payload at an index of the block: row `o`, position `l` of the block is the weight's row `o` against
    the input block's column `l`, plus the bias of row `o`. -/
theorem pay_at (W : Vec Ideal S512x512 .f32) (X : Vec Ideal S1x512x1664 .f32) (B : Vec Ideal S512x1 .f32) (y : S1x512x1664.Idx) :
    k0_pay1 W X B y = (∑ k : Fin 512, W (ix2 (y 1) k) * X (ix3 0 k (y 2))) + B (ix2 (y 1) 0) := by
  obtain ⟨a, o, l, rfl⟩ : ∃ (a : Fin 1) (o : Fin 512) (l : Fin 1664), y = ix3 a o l := ⟨y 0, y 1, y 2, eq_ix3 y⟩
  obtain rfl : a = 0 := Subsingleton.elim _ _
  unfold k0_pay1
  exact LibConvBlock.block_apply 512 512 1664 _ _ _ _ _ W X B o l

/-- A filled block read inside the part the transfer moves is the moved part. -/
theorem fill_apply_of_lt {G : Pipeline.Grid} (w : Pipeline.Window sig G) {α : Type} (i : G.Coords) (d : w.block.Idx → α)
    (g : (w.xblock i).Idx → α) (y : w.block.Idx) (h : ∀ a, (y a).val < w.xsize i a) :
    w.fill i d g y = g (fun a => ⟨(y a).val, h a⟩) := by
  unfold Pipeline.Window.fill
  rw [dif_pos ((w.moved_iff i y).mpr h)]

/-! ## The windows' blocks read at an index

An index of a block sits in the array at block index × block size + the coordinate inside the block, axis by axis. -/

theorem iblk0_at (c : Dev nD) (t : Fin cfg0.N) (j : (win0_0.xblock (grid0.coords t)).Idx) (i : S64x512x2048.Idx)
    (h : ∀ a, (i a).val = win0_0.index t a * S1x512x1664.size a + 1 * (j a).val) :
    iblk m c 0 t j = V m c main_arg0 i := by
  unfold iblk
  show V m c main_arg0 (((cfg0.win 0).blk t).view.emb j) = V m c main_arg0 i
  exact congrArg _ (funext fun a => Fin.ext (h a).symm)

theorem iblk1_at (c : Dev nD) (t : Fin cfg0.N) (j : S512x512.Idx) : iblk m c 1 t j = V m c main_v0 j := by
  unfold iblk
  show V m c main_v0 (((cfg0.win 1).blk t).view.emb j) = V m c main_v0 j
  refine congrArg _ (funext fun a => Fin.ext ?_)
  show win0_1.index t a * S512x512.size a + 1 * (j a).val = (j a).val
  have := index1 t
  match a with
  | ⟨0, _⟩ => show win0_1.index t 0 * 512 + 1 * (j 0).val = (j 0).val; rw [this.1]; omega
  | ⟨1, _⟩ => show win0_1.index t 1 * 512 + 1 * (j 1).val = (j 1).val; rw [this.2]; omega

theorem iblk2_at (c : Dev nD) (t : Fin cfg0.N) (j : S512x1.Idx) : iblk m c 2 t j = V m c main_v1 j := by
  unfold iblk
  show V m c main_v1 (((cfg0.win 2).blk t).view.emb j) = V m c main_v1 j
  refine congrArg _ (funext fun a => Fin.ext ?_)
  show win0_2.index t a * S512x1.size a + 1 * (j a).val = (j a).val
  have := index2 t
  match a with
  | ⟨0, _⟩ => show win0_2.index t 0 * 512 + 1 * (j 0).val = (j 0).val; rw [this.1]; omega
  | ⟨1, _⟩ => show win0_2.index t 1 * 1 + 1 * (j 1).val = (j 1).val; rw [this.2]; omega

/-- Two such sums whose terms agree one by one are equal. -/
theorem entry_congr (W W' : S512x512.Idx → EReal) (X : S1x512x1664.Idx → EReal) (X' : S64x512x2048.Idx → EReal)
    (B B' : S512x1.Idx → EReal) (o : Fin 512) (l : Fin 1664) (n : Fin 64) (p : Fin 2048)
    (hW : ∀ k, W (ix2 o k) = W' (ix2 o k)) (hX : ∀ k, X (ix3 0 k l) = X' (ix3 n k p)) (hB : B (ix2 o 0) = B' (ix2 o 0)) :
    (∑ k : Fin 512, W (ix2 o k) * X (ix3 0 k l)) + B (ix2 o 0) = (∑ k : Fin 512, W' (ix2 o k) * X' (ix3 n k p)) + B' (ix2 o 0) := by
  rw [hB]
  exact congrArg (· + B' (ix2 o 0)) (Finset.sum_congr rfl fun k _ => by rw [hW, hX])

/-! ## What a point writes back -/

/-- The part of the result's staging buffer that the write-back at point `t` moves, after the body has run on the
    weight, the bias and the input block as fetched — whatever words `d` the fetch left past the array's end —, is the
    point's block of the convolution: entry `(0, o, l)` of the buffer, `l` among the positions inside the array, is row
    `o` of the weight against column `l` of the staged block, which the fetch filled from the array, plus the bias. -/
theorem cut_out (c : Dev nD) (t : Fin cfg0.N) (d : S1x512x1664.Idx → Elt Ideal .f32) :
    win0_3.cut (grid0.coords t) (k0_pay1 (iblk m c 1 t) (win0_0.fill (grid0.coords t) d (iblk m c 0 t)) (iblk m c 2 t))
      = (win0_3.blk t).view.read (Elt Ideal) (G m c) := by
  funext j
  have hi3 := index3 t; have hi0 := index0 t; have hx3 := xsize3 t; have hx0 := xsize0 t
  have ht : t.val < 128 := lt_of_lt_of_eq t.isLt N_0
  have hj0 : (j 0).val < win0_3.xsize (grid0.coords t) 0 := (j 0).isLt
  have hj1 : (j 1).val < win0_3.xsize (grid0.coords t) 1 := (j 1).isLt
  have hj2 : (j 2).val < win0_3.xsize (grid0.coords t) 2 := (j 2).isLt
  rw [hx3.1] at hj0; rw [hx3.2.1] at hj1
  have hj2' : (j 2).val < (if t.val % 2 = 0 then 1664 else 384) := hx3.2.2 ▸ hj2
  have hl : (j 2).val < 1664 := by split at hj2' <;> omega
  have hp : t.val % 2 * 1664 + (j 2).val < 2048 := by split at hj2' <;> omega
  -- the coordinates: row `o` and position `l` inside the block, batch row `n` and position `p` in the array
  obtain ⟨o, ho⟩ : ∃ o : Fin 512, o.val = (j 1).val := ⟨⟨(j 1).val, hj1⟩, rfl⟩
  obtain ⟨l, hl'⟩ : ∃ l : Fin 1664, l.val = (j 2).val := ⟨⟨(j 2).val, hl⟩, rfl⟩
  obtain ⟨n, hn⟩ : ∃ n : Fin 64, n.val = t.val / 2 := ⟨⟨t.val / 2, by omega⟩, rfl⟩
  obtain ⟨p, hp'⟩ : ∃ p : Fin 2048, p.val = t.val % 2 * 1664 + (j 2).val := ⟨⟨_, hp⟩, rfl⟩
  have hy : (win0_3.xinj (grid0.coords t) j : S1x512x1664.Idx) = ix3 0 o l := funext fun a => Fin.ext (by
    match a with
    | ⟨0, _⟩ => show (j 0).val = 0; omega
    | ⟨1, _⟩ => exact ho.symm
    | ⟨2, _⟩ => exact hl'.symm)
  have hi : ((win0_3.blk t).view.emb j : S64x512x2048.Idx) = ix3 n o p := funext fun a => Fin.ext (by
    match a with
    | ⟨0, _⟩ => show win0_3.index t 0 * 1 + 1 * (j 0).val = n.val; rw [hi3.1]; omega
    | ⟨1, _⟩ => show win0_3.index t 1 * 512 + 1 * (j 1).val = o.val; rw [hi3.2.1]; omega
    | ⟨2, _⟩ => show win0_3.index t 2 * 1664 + 1 * (j 2).val = p.val; rw [hi3.2.2]; omega)
  show k0_pay1 (iblk m c 1 t) (win0_0.fill (grid0.coords t) d (iblk m c 0 t)) (iblk m c 2 t) (win0_3.xinj (grid0.coords t) j)
      = G m c ((win0_3.blk t).view.emb j)
  rw [hy, hi, pay_at]
  have hlt : ∀ (k : Fin 512) a, ((ix3 (0 : Fin 1) k l : S1x512x1664.Idx) a).val < win0_0.xsize (grid0.coords t) a := fun k a => by
    match a with
    | ⟨0, _⟩ => show 0 < win0_0.xsize (grid0.coords t) 0; rw [hx0.1]; omega
    | ⟨1, _⟩ => show k.val < win0_0.xsize (grid0.coords t) 1; rw [hx0.2.1]; exact k.isLt
    | ⟨2, _⟩ => show l.val < win0_0.xsize (grid0.coords t) 2; rw [hx0.2.2, hl']; exact hj2'
  refine entry_congr (iblk m c 1 t) (V m c main_v0) (win0_0.fill (grid0.coords t) d (iblk m c 0 t)) (V m c main_arg0)
    (iblk m c 2 t) (V m c main_v1) o l n p (fun k => iblk1_at m c t _) (fun k => ?_) (iblk2_at m c t _)
  rw [fill_apply_of_lt win0_0 (grid0.coords t) d (iblk m c 0 t) (ix3 (0 : Fin 1) k l) (hlt k)]
  refine iblk0_at m c t _ (ix3 n k p) fun a => ?_
  match a with
  | ⟨0, _⟩ => show n.val = win0_0.index t 0 * 1 + 1 * 0; rw [hi0.1]; omega
  | ⟨1, _⟩ => show k.val = win0_0.index t 1 * 512 + 1 * k.val; rw [hi0.2.1]; omega
  | ⟨2, _⟩ => show p.val = win0_0.index t 2 * 1664 + 1 * l.val; rw [hi0.2.2]; omega

end Cert.ReferenceIdeal.Conv

end
-- ==== Proof.RefData.lean ====
/-
  The reference's pipeline, point by point: what each staging buffer holds when the kernel's body is called and when
  it returns. The input's and the result's blocks at the second position tile overhang the array: the fetch fills
  only the positions inside the array and leaves words nothing names on the others, the body computes on all of them,
  and the write-back moves only the positions inside the array — on which the result is the convolution's.
-/
import proofs.«179022_g2000006126297917_pallasbulk_279_6_alg».proof.Proof.RefValue
import Idealize.ShloMosaic.Lib.Pipeline.Frame

set_option maxRecDepth 16384

noncomputable section

namespace Cert.ReferenceIdeal.Conv

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

local notation "𝕄" => MT nD τ sig Unit (Elt Ideal) ℕ (UR sig nD τ) ℕ

/-! ## The proof data -/

/-- A filler for the positions of a staging buffer past the array's end, of which nothing is stated: the zero word. -/
def zeroBlock : S1x512x1664.Idx → Elt Ideal .f32 := fun _ => Scalar.ofBits (F := Ideal) .f32 0#32

/-- The input's staging buffer after the body at point `t`, on the positions inside the array: the point's block. -/
def xAfter (c : Dev nD) (t : Fin cfg0.N) : S1x512x1664.Idx → Elt Ideal .f32 :=
  win0_0.fill (grid0.coords t) zeroBlock (iblk m c 0 t)

/-- The result's staging buffer after the body at point `t`, on the positions inside the array: the point's block of the
    convolution. -/
def oAfter (c : Dev nD) (t : Fin cfg0.N) : S1x512x1664.Idx → Elt Ideal .f32 :=
  win0_3.fill (grid0.coords t) zeroBlock ((win0_3.blk t).view.read (Elt Ideal) (G m c))

/-- The proof data of the one pipeline on core `c`: the arrays as the region finds them; after the body at point `t`
    the weight's and the bias's buffers at their blocks, the input's at its block on the positions inside the array
    and the result's at the point's block of the convolution on the positions inside the array — past the array's
    end the obligation states nothing of either, and the filler here is the zero word. -/
def dats (_ : Fin 1) (c : Dev nD) : Dat τ (Elt Ideal) Unit ℕ (UR sig nD τ) ℕ cfg0 c where
  A w := V m c (Pipeline.arrRef spec0 w)
  after w t := match w with
    | ⟨0, _⟩ => xAfter m c t
    | ⟨1, _⟩ => iblk m c 1 t
    | ⟨2, _⟩ => iblk m c 2 t
    | ⟨3, _⟩ => oAfter m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]

/-- What a write-back, or the next fetch's overwrite, sees of the input's buffer: the block's part inside the array. -/
theorem after0_cut (c : Dev nD) (t : Fin cfg0.N) :
    win0_0.cut (grid0.coords t) ((dats m 0 c).after 0 t) = iblk m c 0 t := by
  dsimp only [dats]; exact win0_0.cut_fill _ _ _

/-- What the write-back at point `t` writes: the point's block of the convolution. -/
theorem after3_cut (c : Dev nD) (t : Fin cfg0.N) :
    win0_3.cut (grid0.coords t) ((dats m 0 c).after 3 t) = (win0_3.blk t).view.read (Elt Ideal) (G m c) := by
  dsimp only [dats]; exact win0_3.cut_fill _ _ _

/-! ## What the body finds in each staging buffer -/

/-- The input's buffer, just fetched: the block where the fetch filled it, anything elsewhere. -/
theorem before0 (c : Dev nD) (t : Fin cfg0.N) (d) :
    (dats m 0 c).before 0 t d = win0_0.fill (grid0.coords t) d (iblk m c 0 t) := by
  rw [(dats m 0 c).before_fetched 0 t (fetch0_0 t)]
  unfold Dat.fetched Dat.blockOf iblk
  rw [A_eq]

theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The result's buffer holds anything: every point writes it back, so each point finds it fresh. -/
theorem before3 (c : Dev nD) (t : Fin cfg0.N) (d) : (dats m 0 c).before 3 t d = d :=
  (dats m 0 c).before_out_reset 3 rfl t
    ((Nat.eq_zero_or_pos t.val).imp id fun h => ⟨Nat.pos_iff_ne_zero.mp h, flush0_3 _⟩) d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the input's and the result's buffers stated on the part their transfers move only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t)))))

/-- The body at any point: the three inputs' buffers hold the weight, the bias and the input block as fetched, so the
    kernel's run applies; the result's buffer ends at the payload of those, whose part inside the array is the point's
    block of the convolution (`cut_out`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after1, after2, after0_cut, after3_cut]
  iintro ⟨HΦ, Ho, ⟨%d0, H0⟩, ⟨%d1, H1⟩, ⟨%d2, H2⟩, ⟨%d3, H3⟩⟩
  have hcut : win0_3.cut (grid0.coords t) (outBlock (win0_0.fill (grid0.coords t) d0 (iblk m c 0 t)) (iblk m c 1 t) (iblk m c 2 t))
      = (win0_3.blk t).view.read (Elt Ideal) (G m c) := by
    rw [outBlock_eq]; exact cut_out m c t d0
  have hfill : win0_3.fill (grid0.coords t) (outBlock (win0_0.fill (grid0.coords t) d0 (iblk m c 0 t)) (iblk m c 1 t) (iblk m c 2 t))
        ((win0_3.blk t).view.read (Elt Ideal) (G m c))
      = outBlock (win0_0.fill (grid0.coords t) d0 (iblk m c 0 t)) (iblk m c 1 t) (iblk m c 2 t) := by
    rw [← hcut]; exact win0_3.fill_cut _ _
  iapply (sound_kernel c Set.univ (grid0.coords t) _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists (outBlock (win0_0.fill (grid0.coords t) d0 (iblk m c 0 t)) (iblk m c 1 t) (iblk m c 2 t))
  rw [hfill]
  iexact H3

/-- The library's body obligation, at every point. -/
theorem body_obligation (c : Dev nD) : BodyObligationLoose (dats m 0 c) (defs₀ (F := Ideal)) Variants.none () Set.univ := fun t => by
  rw [bigSep_W0, bigSep_W0]
  exact sound_body m c t

end Cert.ReferenceIdeal.Conv

end
-- ==== Proof.RefRun.lean ====
/-
  The reference's run: the launch of its pipeline over the proof data, the frame, and the result array in closed form —
  the blocks the 128 points write back, the second tile's cut at the array's end, piece the convolution together.
-/
import proofs.«179022_g2000006126297917_pallasbulk_279_6_alg».proof.Proof.RefData
import Idealize.ShloMosaic.Lib.Pipeline.Frame
import Idealize.ShloMosaic.Lib.Pipeline.Value
import Idealize.ShloMosaic.Lib.StableHlo.Run
import Idealize.ShloMosaic.Lib.Tactic

set_option maxRecDepth 16384

noncomputable section

namespace Cert.ReferenceIdeal.Conv

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## The run -/

set_option backward.isDefEq.respectTransparency.types false in
/-- From any memory with zero counters every weakly fair execution of @main terminates, and every final state has each
    array of the pipeline at what the library computes from the proof data and every other unscoped buffer as the region
    found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the run leaves the three argument arrays as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-! ## The result array -/

/-- Every index `(n, o, l)` of the result lies in the block of the point of batch row `n` and position tile `l / 1664`:
    tile 0 holds positions `0‥1663`, tile 1 the remaining `1664‥2047`. -/
theorem covered (i : S64x512x2048.Idx) :
    ∃ t : Fin cfg0.N, (cfg0.win 3).flush t = true ∧ i ∈ ((cfg0.win 3).blk t).view.set := by
  have h0 : (i 0).val < 64 := (i 0).isLt
  have h1 : (i 1).val < 512 := (i 1).isLt
  have h2 : (i 2).val < 2048 := (i 2).isLt
  obtain ⟨t, ht⟩ : ∃ t : Fin cfg0.N, t.val = 2 * (i 0).val + (i 2).val / 1664 :=
    ⟨⟨2 * (i 0).val + (i 2).val / 1664, by rw [show cfg0.N = 128 from N_0]; omega⟩, rfl⟩
  refine ⟨t, flush0_3 t, ?_⟩
  show i ∈ ((View.whole main_v2).slice (win0_3.rect t)).set
  rw [View.set_slice_whole, Rect.mem_set_unit]
  have hi := index3 t
  have hx := xsize3 t
  intro a
  match a with
  | ⟨0, _⟩ =>
    show win0_3.index t 0 * 1 ≤ (i 0).val ∧ (i 0).val < win0_3.index t 0 * 1 + win0_3.xsize (grid0.coords t) 0
    rw [hi.1, hx.1]; omega
  | ⟨1, _⟩ =>
    show win0_3.index t 1 * 512 ≤ (i 1).val ∧ (i 1).val < win0_3.index t 1 * 512 + win0_3.xsize (grid0.coords t) 1
    rw [hi.2.1, hx.2.1]; omega
  | ⟨2, _⟩ =>
    show win0_3.index t 2 * 1664 ≤ (i 2).val ∧ (i 2).val < win0_3.index t 2 * 1664 + win0_3.xsize (grid0.coords t) 2
    rw [hi.2.2, hx.2.2]; split <;> omega

/-- After the run the result array is the convolution. -/
theorem final (c : Dev nD) : (dats m 0 c).arrAt 3 cfg0.N = G m c :=
  (dats m 0 c).arrAt_eq_of_cover 3 (G m c) (fun t _ => after3_cut m c t) covered

/-! ## The two host reshapes -/

/-- The weight as the region finds it: the argument viewed as a matrix. -/
theorem V_main_v0 (c : Dev nD) :
    (V m c main_v0 : S512x512.Idx → EReal) = shapeCast S512x512 (m ((c : Thread nD τ).loc main_arg1)) shapeCasts_S512x512x1_S512x512 := by
  dsimp only [V, hostOps0]; after_results; rfl

/-- The bias as the region finds it: the argument viewed as a column. -/
theorem V_main_v1 (c : Dev nD) :
    (V m c main_v1 : S512x1.Idx → EReal) = shapeCast S512x1 (m ((c : Thread nD τ).loc main_arg2)) shapeCasts_S512_S512x1 := by
  dsimp only [V, hostOps0]; after_results; rfl

/-! ## The run, with the result named -/

/-- Every weakly fair execution of the reference terminates with the result array at the convolution of the input with the
    weight matrix and the bias column, and the three arguments unchanged. -/
theorem run : θ_run defs (onTc (τ := τ) (main (F := Ideal))) ⟨m, fun _ => 0, ρ⟩ fun r => ∀ c : Dev nD,
      r.2.mem ((c : Thread nD τ).loc main_v2) = Conv1x1.conv (m ((c : Thread nD τ).loc main_arg0)) (V m c main_v0) (V m c main_v1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(((h c).1 3).trans (final m c)).trans (by unfold G; rw [V_main_arg0]),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.ReferenceIdeal.Conv

end
-- ==== Proof.lean ====
/-
  A convolution with a window of one position: at every batch row `n` and position `l`, the `512 × 512` weight matrix
  times the column `x[n, ·, l]`, plus the bias,
      out[n, o, l] = (∑ k, w[o, k] · x[n, k, l]) + b[o].
  The kernel walks 32 grid points, two whole batch rows per point. The reference walks 128 points, one batch row and one
  tile of 1664 positions per point; 2048 positions are one whole tile and 384 positions of a second, whose blocks
  overhang the array: the fetch fills the 384 columns inside the array and leaves the others at words nothing names, the
  body multiplies all 1664 columns, and the write-back moves the 384 columns inside the array. A column of a matrix
  product depends on the same column of the right operand only, so those 384 columns are the convolution's whatever the
  other columns held. Over the extended reals both programs therefore leave, index by index, the same sum of the same
  products in the same order — no law of arithmetic is used, and the inputs' finiteness is not needed.

  The two word-level frames and the idealized kernel's frame are the generated ones; the reference's frame and both
  programs' result arrays are proved in the modules imported below; the idealization rewrote nothing, so its
  conjunct is `True`.
-/
import proofs.«179022_g2000006126297917_pallasbulk_279_6_alg».proof.Defs
import proofs.«179022_g2000006126297917_pallasbulk_279_6_alg».proof.Proof.Gen.Kernel
import proofs.«179022_g2000006126297917_pallasbulk_279_6_alg».proof.Proof.Gen.Kernel.Frame
import proofs.«179022_g2000006126297917_pallasbulk_279_6_alg».proof.Proof.Gen.KernelIdeal
import proofs.«179022_g2000006126297917_pallasbulk_279_6_alg».proof.Proof.Gen.KernelIdeal.Frame
import proofs.«179022_g2000006126297917_pallasbulk_279_6_alg».proof.Proof.Gen.ReferenceIdeal
import proofs.«179022_g2000006126297917_pallasbulk_279_6_alg».proof.Proof.Gen.Pre_finite_inputs
import proofs.«179022_g2000006126297917_pallasbulk_279_6_alg».proof.Proof.KernelValue
import proofs.«179022_g2000006126297917_pallasbulk_279_6_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.Conv.frame m ρ

theorem preserves : Cert.preserves_Kernel_KernelIdeal := trivial

/-- Both idealized programs end with the result array at the convolution of the input with the weight viewed as a matrix
    and the bias viewed as a column — the same two views of arguments that agree. -/
theorem algebraic : Cert.algebraic_KernelIdeal_ReferenceIdeal := by
  intro m ρ m' ρ' _ hagree
  refine ⟨fun c => Conv1x1.conv (m ((c : Thread Cert.KernelIdeal.nD Cert.KernelIdeal.τ).loc Cert.KernelIdeal.main_arg0))
      (Cert.KernelIdeal.Gen.V m c Cert.KernelIdeal.main_v0) (Cert.KernelIdeal.Gen.V m c Cert.KernelIdeal.main_v1),
    Cert.KernelIdeal.ConvValue.run m ρ, ?_⟩
  refine (θ_run Cert.ReferenceIdeal.defs _ _).mono (fun _ h c => ⟨(h c).1.trans ?_, (h c).2⟩)
    (Cert.ReferenceIdeal.Conv.run m' ρ')
  dsimp only
  rw [Cert.ReferenceIdeal.Conv.V_main_v0, Cert.ReferenceIdeal.Conv.V_main_v1, Cert.KernelIdeal.ConvValue.V_main_v0,
    Cert.KernelIdeal.ConvValue.V_main_v1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
